-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S8192 : Shape := ⟨1, ![8192]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x4 .f32) (main_arg1 : FVec F S8192x4 .f32) (main_arg2 : IVec S8192 32) (main_arg3 : IVec S8192 32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_c_2 : IVec S_ 32 := constantI S_ 32 4#32
  let main_v9 : IVec S8192 32 := broadcastInDim S8192 ![] bcast_S_S8192 main_c_2
  let main_v10 : IVec S8192 1 := cmpi .slt main_arg2 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  main_v12
-- ==== Kernel.lean ====
abbrev S8192x4 : Shape := ⟨2, ![8192, 4]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S64x128 : Shape := ⟨2, ![64, 128]⟩
abbrev S1024x1 : Shape := ⟨2, ![1024, 1]⟩
abbrev S1x1024 : Shape := ⟨2, ![1, 1024]⟩
abbrev S8x128 : Shape := ⟨2, ![8, 128]⟩
abbrev S1024x1024 : Shape := ⟨2, ![1024, 1024]⟩
abbrev S1024 : Shape := ⟨1, ![1024]⟩
abbrev S1 : Shape := ⟨1, ![1]⟩
abbrev S1x1 : Shape := ⟨2, ![1, 1]⟩
abbrev S8x1024 : Shape := ⟨2, ![8, 1024]⟩
abbrev S8 : Shape := ⟨1, ![8]⟩

abbrev nBuf : Space → Nat
  | .hbm => 35
  | .vmem => 12
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S8192, .i32⟩
  | .hbm, ⟨3, _⟩ => ⟨S8192, .i32⟩
  | .hbm, ⟨4, _⟩ => ⟨S_, .f32⟩
  | .hbm, ⟨5, _⟩ => ⟨S8192, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x1, .i32⟩
  | .hbm, ⟨18, _⟩ => ⟨S1x8192, .i32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S_, .f32⟩
  | .hbm, ⟨23, _⟩ => ⟨S8x1024, .f32⟩
  | .hbm, ⟨24, _⟩ => ⟨S_, .f32⟩
  | .hbm, ⟨25, _⟩ => ⟨S8, .f32⟩
  | .hbm, ⟨26, _⟩ => ⟨S8, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x4_S8192_d1 : S8192x4.ReducesTo [1] S8192
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S8x128_S8x128 : S8x128.ShapeCasts S8x128
  shapeCasts_S1x1_S1x1 : S1x1.ShapeCasts S1x1
  broadcasts_S1x1_S8x128 : S1x1.Broadcasts S8x128
  reducesTo_S64x128_S_d0_1 : S64x128.ReducesTo [0, 1] S_
  shapeCasts_S64x128_S8x1024 : S64x128.ShapeCasts S8x1024
  reducesTo_S8x1024_S8_d1 : S8x1024.ReducesTo [1] S8
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x128.size a
  hwx0_5 : ∀ i : grid0.Coords, EltTy.bits .f32 = 32 ∨ (Rect.block (s := S64x128) S8x128.size (cc0_transform_5 i) (hinb0_5 i)).WholeWords (EltTy.packing .f32)

variable [Facts₀]

abbrev win0_0 : Pipeline.Window sig grid0 :=
  Pipeline.Window.ofSpec (Memref.whole main_v6) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4 : Shape := ⟨2, ![8192, 4]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S8192, .i32⟩
  | .hbm, ⟨3, _⟩ => ⟨S8192, .i32⟩
  | .hbm, ⟨4, _⟩ => ⟨S_, .f32⟩
  | .hbm, ⟨5, _⟩ => ⟨S8192, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S8192x1, .i1⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S1x8192, .f32⟩
  | .hbm, ⟨18, _⟩ => ⟨S_, .f32⟩
  | .hbm, ⟨19, _⟩ => ⟨S1x8192, .f32⟩
  | .hbm, ⟨20, _⟩ => ⟨S1x8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .i32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S_, .i32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S8192x4_S8192_d1 : S8192x4.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S1x8192 : S_.BroadcastsInDim S1x8192 (![] : Fin 0 → Fin S1x8192.rank)
  bcast_S_S8192x8192 : S_.BroadcastsInDim S8192x8192 (![] : Fin 0 → Fin S8192x8192.rank)
  natLt_1_32 : 1 < 32
  reducesTo_S8192x8192_S_d0_1 : S8192x8192.ReducesTo [0, 1] S_

variable [Facts₀]

class Facts : Prop extends Facts₀ where

variable [Facts]
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.LibWords.lean ====
/-
  Words and numbers.

  One-bit words widened to 32 bits, read as signed integers or as words of naturals; the signed comparisons by the
  integers; a natural number below 2^31 converted from the extended reals to a 32-bit word; and 32-bit words of
  naturals added up.
-/
import Idealize.ShloMosaic.PureOps.Ideal
import Idealize.ShloMosaic.PureOps.Reduce
import Mathlib.Algebra.BigOperators.Fin

noncomputable section

open Idealize.ShloMosaic Finset

namespace Cert.LibWords

/-- A one-bit word widened to 32 bits and read as a signed integer is the bit. -/
theorem toInt_setWidth_bit (b : BitVec 1) : (b.setWidth 32).toInt = (b.toNat : ℤ) := by
  rcases BitVec.eq_zero_or_eq_one b with h | h <;> subst h <;> decide

/-- A signed "less than" word that is 1 says the integers compare. -/
theorem lt_of_cmpi_slt {x y : BitVec 32} (h : IntOp.cmpi .slt x y = 1#1) : x.toInt < y.toInt := by
  by_contra hn
  have e : IntOp.cmpi .slt x y = 0#1 := by
    show BitVec.ofBool (x.slt y) = 0#1
    rw [show x.slt y = false from by simp [BitVec.slt, hn]]
    rfl
  rw [e] at h
  exact absurd h (by decide)

/-- The signed "greater than" word, by the integers. -/
theorem cmpi_sgt_eq (x y : BitVec 32) : IntOp.cmpi .sgt x y = BitVec.ofBool (decide (y.toInt < x.toInt)) := by
  show BitVec.ofBool (y.slt x) = _
  simp [BitVec.slt]

/-- A natural number below 2^31, as an extended real, converts to the 32-bit word of that number. -/
theorem fptosi_natCast (n : ℕ) (hn : n < 2 ^ 31) : Ideal.fptosi 32 ((n : ℕ) : EReal) = BitVec.ofNat 32 n := by
  unfold Ideal.fptosi
  rw [← EReal.coe_natCast, Ideal.toIntClamped_coe, if_pos (Nat.cast_nonneg n), Int.floor_natCast]
  have h1 : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]
    have hn' : (n : ℤ) < 2147483648 := by exact_mod_cast (by norm_num at hn ⊢; exact hn : n < 2147483648)
    omega
  rw [h1]
  exact BitVec.ofInt_natCast _ _

/-- Words of natural numbers added up from zero give the word of the sum. -/
theorem fold_addi_ofNat {ι : Type} (S : Finset ι) (n : ι → ℕ) :
    S.fold IntOp.addi (0#32) (fun k => BitVec.ofNat 32 (n k)) = BitVec.ofNat 32 (∑ k ∈ S, n k) := by
  classical
  induction S using Finset.induction_on with
  | empty => rfl
  | insert a S ha ih =>
    rw [Finset.fold_insert ha, ih, Finset.sum_insert ha]
    show BitVec.ofNat 32 (n a) + BitVec.ofNat 32 _ = _
    rw [BitVec.ofNat_add]

/-- A one-bit word widened to 32 bits is the word of the bit. -/
theorem setWidth_bit (b : BitVec 1) : b.setWidth 32 = BitVec.ofNat 32 b.toNat := by
  rcases BitVec.eq_zero_or_eq_one b with h | h <;> subst h <;> decide

end Cert.LibWords
-- ==== Proof.PairSums.lean ====
/-
  The pairwise ranking sums.

  For 8192 samples with risks r, labels Y and censoring flags c, a pair (i, j) counts when sample i is uncensored and
  Y j > Y i, and then weighs max (r j - r i) 0. This module states the pair test and the pair weight in the two forms
  the two programs compute them in, shows that the forms agree when every label is below 4, and cuts the sums over all
  pairs into 8 x 8 tiles of 1024 x 1024 pairs.
-/
import Idealize.ShloMosaic.PureOps.Ideal
import Idealize.ShloMosaic.PureOps.Ideal.Laws
import Idealize.ShloMosaic.Lib.ValueIdx
import Mathlib.Algebra.BigOperators.Fin
import proofs.«179149_j1803886265544_2_alg».proof.Proof.LibBlocks
import proofs.«179149_j1803886265544_2_alg».proof.Proof.LibWords

noncomputable section

open Idealize.ShloMosaic Finset

namespace Cert.PairSums

open Cert.LibWords

/-- Sample `p` of sample block `I`: 8 blocks of 1024 samples. -/
def row (I : Fin 8) (p : Fin 1024) : Fin 8192 := ⟨I.val * 1024 + p.val, by omega⟩

/-- A sum over the samples is the sum over the blocks of each block's sum. -/
theorem sum_rows {M : Type*} [AddCommMonoid M] (g : Fin 8192 → M) :
    ∑ k, g k = ∑ I : Fin 8, ∑ p : Fin 1024, g (row I p) :=
  Cert.LibBlocks.sum_entries (A := 8) (B := 1024) g

/-- A sum over all pairs of samples is the sum over the 8 x 8 tiles of each tile's 1024 x 1024 pairs. -/
theorem sum_pairs {M : Type*} [AddCommMonoid M] (f : Fin 8192 → Fin 8192 → M) :
    ∑ i, ∑ j, f i j = ∑ I : Fin 8, ∑ J : Fin 8, ∑ p : Fin 1024, ∑ q : Fin 1024, f (row I p) (row J q) := by
  rw [sum_rows]
  refine sum_congr rfl fun I _ => ?_
  calc ∑ p : Fin 1024, ∑ j, f (row I p) j
      = ∑ p : Fin 1024, ∑ J : Fin 8, ∑ q : Fin 1024, f (row I p) (row J q) := sum_congr rfl fun p _ => sum_rows _
    _ = ∑ J : Fin 8, ∑ p : Fin 1024, ∑ q : Fin 1024, f (row I p) (row J q) := sum_comm

/-! ## The pair test and the pair weight, in the two forms -/

variable (r : Fin 8192 → EReal) (Y c : Fin 8192 → BitVec 32)

/-- The pair test as the reference states it: sample `i` is uncensored and `Y j > Y i`. -/
def bitR (i j : Fin 8192) : BitVec 1 := IntOp.andi (IntOp.cmpi .eq (c i) 0#32) (IntOp.cmpi .sgt (Y j) (Y i))

/-- The effective label of sample `i`: its label when uncensored, and 4 — above every label — when censored. -/
def yeff (i : Fin 8192) : BitVec 32 := Scalar.select (IntOp.cmpi .eq (c i) 0#32) (Y i) 4#32

/-- The pair test as the kernel states it: `Y j` is above the effective label of `i`. -/
def bitK (i j : Fin 8192) : BitVec 1 := IntOp.cmpi .sgt (Y j) (yeff Y c i)

/-- When every label is below 4 the two tests agree: for a censored `i` no label is above 4. -/
theorem bitK_eq_bitR (hY : ∀ j, IntOp.cmpi .slt (Y j) 4#32 = 1#1) (i j : Fin 8192) : bitK Y c i j = bitR Y c i j := by
  unfold bitK bitR yeff
  rcases BitVec.eq_zero_or_eq_one (IntOp.cmpi .eq (c i) 0#32) with h | h
  · rw [h, ValueIdx.select_zero, cmpi_sgt_eq]
    have h4 : (Y j).toInt < (4#32 : BitVec 32).toInt := lt_of_cmpi_slt (hY j)
    rw [decide_eq_false (by omega)]
    show (0#1 : BitVec 1) = 0#1 &&& _
    exact (BitVec.zero_and).symm
  · rw [h, ValueIdx.select_one]
    show _ = 1#1 &&& _
    rcases BitVec.eq_zero_or_eq_one (IntOp.cmpi .sgt (Y j) (Y i)) with e | e <;> rw [e] <;> decide

/-- The kernel's weight of the pair: the positive part of the risk difference, times the test as a number. -/
def wK (i j : Fin 8192) : EReal := max ((r j + 0) - r i) 0 * (((bitK Y c i j).setWidth 32).toInt : ℝ)

/-- The kernel's count of the pair: the test as a number. -/
def cK (i j : Fin 8192) : EReal := (((bitK Y c i j).setWidth 32).toInt : ℝ)

/-- The reference's weight of the pair: the positive part of the risk difference where the test holds, else zero. -/
def wR (i j : Fin 8192) : EReal := Scalar.select (bitR Y c i j) (max ((0 + r j) - r i) 0) 0

/-- The pair's count as a natural number. -/
def nR (i j : Fin 8192) : ℕ := (bitR Y c i j).toNat

theorem wK_eq_wR (hY : ∀ j, IntOp.cmpi .slt (Y j) 4#32 = 1#1) (i j : Fin 8192) : wK r Y c i j = wR r Y c i j := by
  unfold wK wR
  rw [bitK_eq_bitR Y c hY, toInt_setWidth_bit, add_zero, zero_add]
  rcases BitVec.eq_zero_or_eq_one (bitR Y c i j) with h | h <;> rw [h]
  · rw [ValueIdx.select_zero]; simp
  · rw [ValueIdx.select_one]; simp

theorem cK_eq_nR (hY : ∀ j, IntOp.cmpi .slt (Y j) 4#32 = 1#1) (i j : Fin 8192) : cK Y c i j = ((nR Y c i j : ℕ) : EReal) := by
  unfold cK nR
  rw [bitK_eq_bitR Y c hY, toInt_setWidth_bit]
  simp

theorem nR_le_one (i j : Fin 8192) : nR Y c i j ≤ 1 := by
  unfold nR
  have := (bitR Y c i j).isLt
  omega

/-! ## Tiles -/

/-- The kernel's weights summed over tile (I, J). -/
def tileW (I J : Fin 8) : EReal := ∑ p : Fin 1024, ∑ q : Fin 1024, wK r Y c (row I p) (row J q)

/-- The kernel's counts summed over tile (I, J). -/
def tileC (I J : Fin 8) : EReal := ∑ p : Fin 1024, ∑ q : Fin 1024, cK Y c (row I p) (row J q)

/-- The number of counted pairs of tile (I, J). -/
def tileN (I J : Fin 8) : ℕ := ∑ p : Fin 1024, ∑ q : Fin 1024, nR Y c (row I p) (row J q)

theorem tileC_eq (hY : ∀ j, IntOp.cmpi .slt (Y j) 4#32 = 1#1) (I J : Fin 8) : tileC Y c I J = ((tileN Y c I J : ℕ) : EReal) := by
  unfold tileC tileN
  simp only [cK_eq_nR Y c hY, Nat.cast_sum]

theorem tileN_le (I J : Fin 8) : tileN Y c I J ≤ 1024 * 1024 := by
  unfold tileN
  calc ∑ p : Fin 1024, ∑ q : Fin 1024, nR Y c (row I p) (row J q)
      ≤ ∑ _p : Fin 1024, ∑ _q : Fin 1024, 1 := sum_le_sum fun p _ => sum_le_sum fun q _ => nR_le_one Y c _ _
    _ = 1024 * 1024 := by simp

/-- The total weight: the tiles' sums are the sum over all pairs of the reference's weights. -/
theorem total_eq (hY : ∀ j, IntOp.cmpi .slt (Y j) 4#32 = 1#1) :
    ∑ I : Fin 8, ∑ J : Fin 8, tileW r Y c I J = ∑ i, ∑ j, wR r Y c i j := by
  rw [sum_pairs]
  unfold tileW
  simp only [wK_eq_wR r Y c hY]

/-- The total count: the tiles' numbers are the number of counted pairs. -/
theorem count_eq : ∑ I : Fin 8, ∑ J : Fin 8, tileN Y c I J = ∑ i, ∑ j, nR Y c i j := by
  rw [sum_pairs]
  rfl

end Cert.PairSums
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Loss.lean ====
/-
  The loss from the total weight and the count: the total divided by the count when the count is positive, else zero.
  Both programs end with these same four operations.
-/
import Idealize.ShloMosaic.PureOps
import Idealize.ShloMosaic.PureOps.Ideal

noncomputable section

open Idealize.ShloMosaic

namespace Cert.Loss

/-- The shape of a single number. -/
abbrev S0 : Shape := ⟨0, ![]⟩

/-- The loss of a total weight `tot` and a count word `cnt`. -/
def lossTail (tot : S0.Idx → EReal) (cnt : S0.Idx → BitVec 32) : S0.Idx → EReal :=
  select (cmpi .sgt cnt (constantI S0 32 0#32)) (Host.divf (F := Ideal) tot (sitofp (F := Ideal) .f32 cnt))
    (constant (F := Ideal) S0 .f32 0x00000000#32)

end Cert.Loss
-- ==== Proof.RefValue.lean ====
/-
  The reference program's result as the loss of the pairwise sums.

  The reference lays the test and the positive part of the risk difference out over all 8192 x 8192 pairs, sums the
  weights where the test holds into the total and the tests into the count, and divides.
-/
import proofs.«179149_j1803886265544_2_alg».proof.Proof.RefRead
import proofs.«179149_j1803886265544_2_alg».proof.Proof.PairSums
import proofs.«179149_j1803886265544_2_alg».proof.Proof.LibSums
import proofs.«179149_j1803886265544_2_alg».proof.Proof.Loss
import Idealize.ShloMosaic.PureOps.Reduce

noncomputable section

open Idealize.ShloMosaic Idealize.ShloMosaic.ValueIdx

namespace Cert.ReferenceIdeal.RefValue

open Cert.ReferenceIdeal Cert.ReferenceIdeal.Gen Cert.ReferenceIdeal.ReadP Cert.PairSums Cert.LibWords

instance : Subsingleton S_.Idx := ⟨fun a b => funext fun d => d.elim0⟩

variable (x0 : (⟨S8192x4, .f32⟩ : BufTy).Contents (Elt Ideal)) (x2 x3 : (⟨S8192, .i32⟩ : BufTy).Contents (Elt Ideal))

/-- The samples' risks, labels and censoring flags, by sample number. -/
def r : Fin 8192 → EReal := fun k => val_main_v0 (F := Ideal) x0 (ix1 k)
def Y : Fin 8192 → BitVec 32 := fun k => x2 (ix1 k)
def cf : Fin 8192 → BitVec 32 := fun k => x3 (ix1 k)

/-- The test laid out over the pairs, at pair (i, j). -/
theorem v10_at (i j : Fin 8192) : val_main_v10 (F := Ideal) x2 x3 (ix2 i j) = bitR (Y x2) (cf x3) i j := by
  have e3 : idx_main_v3 (idx_main_v9 (ix2 i j)) = ix1 i := funext fun a => Fin.ext (by match a with | ⟨0, _⟩ => rfl)
  have e4 : idx_main_v4 (idx_main_v6 (ix2 i j)) = ix1 j := funext fun a => Fin.ext (by match a with | ⟨0, _⟩ => rfl)
  have e5 : idx_main_v5 (idx_main_v7 (ix2 i j)) = ix1 i := funext fun a => Fin.ext (by match a with | ⟨0, _⟩ => rfl)
  rw [val_main_v10_apply, val_main_v9_apply, val_main_v3_apply, val_main_v2_apply, val_main_v1_apply, val_main_c_apply,
    val_main_v8_apply, val_main_v6_apply, val_main_v4_apply, val_main_v7_apply, val_main_v5_apply, e3, e4, e5]
  rfl

/-- The positive part of the risk difference laid out over the pairs, at pair (i, j). -/
theorem v18_at (i j : Fin 8192) : val_main_v18 (F := Ideal) x0 (ix2 i j) = max ((0 + r x0 j) - r x0 i) 0 := by
  have e11 : idx_main_v11 (idx_main_v15 (ix2 i j)) = ix1 j := funext fun a => Fin.ext (by match a with | ⟨0, _⟩ => rfl)
  have e14 : idx_main_v14 (idx_main_v16 (ix2 i j)) = ix1 i := funext fun a => Fin.ext (by match a with | ⟨0, _⟩ => rfl)
  rw [val_main_v18_apply, val_main_v17_apply, val_main_v15_apply, val_main_v13_apply, val_main_v12_apply,
    val_main_cst_0_apply, val_main_v11_apply, val_main_v16_apply, val_main_v14_apply, val_main_call0_v0_apply,
    val_main_call0_cst_apply, e11, e14]
  show max ((Ideal.ofBits .f32 0x00000000#32 + r x0 j) - r x0 i) (Ideal.ofBits .f32 0x00000000#32) = _
  rw [Ideal.ofBits_zero_f32]

/-- The weights laid out over the pairs, at pair (i, j). -/
theorem v22_at (i j : Fin 8192) : val_main_v22 (F := Ideal) x0 x2 x3 (ix2 i j) = wR (r x0) (Y x2) (cf x3) i j := by
  rw [val_main_v22_apply, v10_at, v18_at, val_main_v21_apply, val_main_cst_2_apply]
  show Scalar.select _ _ (Ideal.ofBits .f32 0x00000000#32) = _
  rw [Ideal.ofBits_zero_f32]
  rfl

/-- The total: zero plus the sum over all pairs of the weights. -/
theorem total_at (i : S_.Idx) :
    val_main_v23 (F := Ideal) x0 x2 x3 i = 0 + ∑ a, ∑ b, wR (r x0) (Y x2) (cf x3) a b := by
  rw [val_main_v23_apply, sum_idx2, val_main_cst_3_apply]
  show Ideal.ofBits .f32 0x00000000#32 + _ = _
  rw [Ideal.ofBits_zero_f32]
  refine congrArg (0 + ·) (Finset.sum_congr rfl fun a _ => Finset.sum_congr rfl fun b _ => v22_at x0 x2 x3 a b)

/-- The count: the word of the number of pairs on which the test holds. -/
theorem count_at (i : S_.Idx) :
    val_main_v20 (F := Ideal) x2 x3 i = BitVec.ofNat 32 (∑ a, ∑ b, nR (Y x2) (cf x3) a b) := by
  unfold val_main_v20
  rw [Host.reduce_eq_fold, Finset.filter_true_of_mem (fun j _ => Subsingleton.elim _ _)]
  have e : (val_main_v19 (F := Ideal) x2 x3 : S8192x8192.Idx → BitVec 32)
      = fun j => BitVec.ofNat 32 (nR (Y x2) (cf x3) (j 0) (j 1)) := funext fun j => by
    obtain ⟨a, b, rfl⟩ : ∃ (a b : Fin 8192), j = ix2 a b := ⟨j 0, j 1, eq_ix2 j⟩
    rw [val_main_v19_apply, v10_at, setWidth_bit]
    rfl
  rw [e]
  show (Finset.univ : Finset S8192x8192.Idx).fold IntOp.addi (0#32) (fun j => BitVec.ofNat 32 (nR (Y x2) (cf x3) (j 0) (j 1))) = _
  rw [fold_addi_ofNat, sum_idx2]

/-- The result is the loss of the total and the count. -/
theorem result_eq :
    val_main_v27 (F := Ideal) x0 x2 x3 = Cert.Loss.lossTail (val_main_v23 (F := Ideal) x0 x2 x3) (val_main_v20 (F := Ideal) x2 x3) := rfl

end Cert.ReferenceIdeal.RefValue
-- ==== Proof.Pieces.lean ====
/-
  What one grid point leaves in the two accumulator blocks, as values.

  At a point with j = 0 the body first stores zeros into both blocks and then adds the point's contribution; at any
  other point it adds the contribution to what the point before left. The contribution to the first block is the tile's
  weight sum placed at the block's corner (0, 0) and zero elsewhere; to the second block, the tile's count likewise.
-/
import proofs.«179149_j1803886265544_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A point with j > 0, first block: what the point before left, plus the tile's weight sum at the corner. -/
theorem out_B_4 (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (a7 : Memref sig .tc .vmem S8x128 .f32) (h7 : a7.IsWhole) (hc : ¬cond0_0 i)
    (x0 : Vec F S1024x1 .f32) (x1 : Vec F S1x1024 .f32) (x2 : Vec F S1024x1 .i32) (x3 : Vec F S1x1024 .i32) (xo4 xo5 : Vec F S8x128 .f32) :
    out0_B_4 c i a2 h2 a3 h3 a4 h4 a5 h5 a6 h6 a7 h7 hc x0 x1 x2 x3 xo4 xo5 = k0_pay1 (k0_pay6 x0 x1 x2 x3) k0_pay8 xo4 := by
  unfold out0_B_4
  rw [View.read_writes_eq_canon _ _ _ (cover0_B_4 c i a2 h2 a3 h3 a4 h4 a5 h5 a6 h6 a7 h7 hc x0 x1 x2 x3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1024x1) hz, View.ld_unit_zero (S := S1x1024) hz, View.ld_unit_zero (S := S8x128) hz]

/-- A point with j > 0, second block: what the point before left, plus the tile's count at the corner. -/
theorem out_B_5 (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (a7 : Memref sig .tc .vmem S8x128 .f32) (h7 : a7.IsWhole) (hc : ¬cond0_0 i)
    (x0 : Vec F S1024x1 .f32) (x1 : Vec F S1x1024 .f32) (x2 : Vec F S1024x1 .i32) (x3 : Vec F S1x1024 .i32) (xo4 xo5 : Vec F S8x128 .f32) :
    out0_B_5 c i a2 h2 a3 h3 a4 h4 a5 h5 a6 h6 a7 h7 hc x0 x1 x2 x3 xo4 xo5 = k0_pay2 (k0_pay7 x2 x3) k0_pay8 xo5 := by
  unfold out0_B_5
  rw [View.read_writes_eq_canon _ _ _ (cover0_B_5 c i a2 h2 a3 h3 a4 h4 a5 h5 a6 h6 a7 h7 hc x0 x1 x2 x3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1024x1) hz, View.ld_unit_zero (S := S1x1024) hz, View.ld_unit_zero (S := S8x128) hz]

/-- A point with j = 0, first block: zeros, plus the tile's weight sum at the corner. -/
theorem out_A_4 (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (a7 : Memref sig .tc .vmem S8x128 .f32) (h7 : a7.IsWhole) (hc : cond0_0 i)
    (x0 : Vec F S1024x1 .f32) (x1 : Vec F S1x1024 .f32) (x2 : Vec F S1024x1 .i32) (x3 : Vec F S1x1024 .i32) :
    out0_A_4 c i a2 h2 a3 h3 a4 h4 a5 h5 a6 h6 a7 h7 hc x0 x1 x2 x3 = k0_pay1 (k0_pay6 x0 x1 x2 x3) k0_pay8 k0_pay3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread, h6.read_unread, h7.read_unread,
    View.ld_unit_zero (S := S1024x1) hz, View.ld_unit_zero (S := S1x1024) hz, View.ld_unit_zero (S := S8x128) hz]

/-- A point with j = 0, second block: zeros, plus the tile's count at the corner. -/
theorem out_A_5 (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S8x128 .f32) (h6 : a6.IsWhole) (a7 : Memref sig .tc .vmem S8x128 .f32) (h7 : a7.IsWhole) (hc : cond0_0 i)
    (x0 : Vec F S1024x1 .f32) (x1 : Vec F S1x1024 .f32) (x2 : Vec F S1024x1 .i32) (x3 : Vec F S1x1024 .i32) :
    out0_A_5 c i a2 h2 a3 h3 a4 h4 a5 h5 a6 h6 a7 h7 hc x0 x1 x2 x3 = k0_pay2 (k0_pay7 x2 x3) k0_pay8 k0_pay4 := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread, h5.read_unread, h6.read_unread, h7.read_unread,
    View.ld_unit_zero (S := S1024x1) hz, View.ld_unit_zero (S := S1x1024) hz, View.ld_unit_zero (S := S8x128) hz]

end Cert.KernelIdeal.Pieces
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.TileValue.lean ====
/-
  One tile's contribution and the accumulator's step, read entry by entry at the extended reals.

  Inside a tile the body forms, for each of its 1024 x 1024 pairs, the test word as a number and the positive part of
  the risk difference times that number; it sums each over the tile (along the rows, then down the column of row sums),
  and adds each sum into its accumulator block at the corner entry (0, 0), adding zero at every other entry.
-/
import proofs.«179149_j1803886265544_2_alg».proof.Proof.Gen.KernelIdeal.Skeleton
import proofs.«179149_j1803886265544_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.TileValue

open Cert.KernelIdeal Cert.KernelIdeal.Gen

/-- The index a sum down a column inserts: row `p` of the column. -/
theorem lift_col (h : S1024x1.Reduces [0] S1) (v : Fin 1) (p : Fin 1024) : h.lift (ix1 v) p = ix2 p v :=
  funext fun a => Fin.ext (by match a with | ⟨0, _⟩ => rfl | ⟨1, _⟩ => rfl)

/-- The index a sum along a row inserts: entry `q` of row `p`. -/
theorem lift_row (h : S1024x1024.Reduces [1] S1024) (p q : Fin 1024) : h.lift (ix1 p) q = ix2 p q :=
  funext fun a => Fin.ext (by match a with | ⟨0, _⟩ => rfl | ⟨1, _⟩ => rfl)

/-- A [1024, 1024] array summed along its rows, the row sums set as a column and summed down it: the sum of all its
    entries. -/
theorem sum_tile (v : FVec Ideal S1024x1024 .f32) (y : S1x1.Idx) (h1 : S1024x1024.Reduces [1] S1024)
    (h0 : S1024x1.Reduces [0] S1) (hc1 : S1024.ShapeCasts S1024x1) (hc0 : S1.ShapeCasts S1x1) (hφ : FKind.Formats .f32)
    (hacc : (0x00000000#32 : BitVec 32) = FKind.add.neutral .f32 hφ) :
    shapeCast S1x1 (multiReduction .add [0] S1 (shapeCast S1024x1 (multiReduction .add [1] S1024 v 0x00000000#32 h1 hφ hacc) hc1)
      0x00000000#32 h0 hφ hacc) hc0 y = ∑ p : Fin 1024, ∑ q : Fin 1024, v (ix2 p q) := by
  obtain ⟨u, w, rfl⟩ : ∃ (u w : Fin 1), y = ix2 u w := ⟨y 0, y 1, eq_ix2 y⟩
  rw [shapeCast_a_1a_apply]
  refine (Ideal.multiReduction_add_single _ _ h0 hφ hacc (ix1 w)).trans ?_
  show ∑ p : Fin 1024, _ = _
  refine Finset.sum_congr rfl fun p _ => ?_
  rw [lift_col h0 w p, shapeCast_a_a1_apply]
  refine (Ideal.multiReduction_add_single _ _ h1 hφ hacc (ix1 p)).trans ?_
  show ∑ q : Fin 1024, _ = _
  refine Finset.sum_congr rfl fun q _ => ?_
  rw [lift_row h1 p q]

/-- The test word of pair (p, q) of a tile, as a number: is the row's label above the column's effective label. -/
theorem pay5_apply (x2 : Vec Ideal S1024x1 .i32) (x3 : Vec Ideal S1x1024 .i32) (p q : Fin 1024) :
    k0_pay5 (F := Ideal) x2 x3 (ix2 p q)
      = (((IntOp.cmpi .sgt (x3 (ix2 (0 : Fin 1) q)) (x2 (ix2 p (0 : Fin 1)))).setWidth 32).toInt : ℝ) := by
  unfold k0_pay5
  (try dsimp only)
  show FloatOps.sitofp (F := Ideal) .f32 ((IntOp.cmpi .sgt (broadcastTo S1024x1024 _ _ (ix2 p q)) (broadcastTo S1024x1024 _ _ (ix2 p q))).setWidth 32) = _
  rw [broadcastTo_1b_ab_apply, broadcastTo_a1_ab_apply, shapeCast_self, shapeCast_self]
  rfl

/-- The tile's count: the sum over its pairs of the test as a number. -/
theorem pay7_apply (x2 : Vec Ideal S1024x1 .i32) (x3 : Vec Ideal S1x1024 .i32) (y : S1x1.Idx) :
    k0_pay7 (F := Ideal) x2 x3 y = ∑ p : Fin 1024, ∑ q : Fin 1024, k0_pay5 (F := Ideal) x2 x3 (ix2 p q) := by
  unfold k0_pay7
  (try dsimp only)
  exact sum_tile _ y _ _ _ _ _ _

/-- The tile's weight sum: over its pairs, the positive part of the risk difference times the test as a number. -/
theorem pay6_apply (x0 : Vec Ideal S1024x1 .f32) (x1 : Vec Ideal S1x1024 .f32) (x2 : Vec Ideal S1024x1 .i32)
    (x3 : Vec Ideal S1x1024 .i32) (y : S1x1.Idx) :
    k0_pay6 (F := Ideal) x0 x1 x2 x3 y
      = ∑ p : Fin 1024, ∑ q : Fin 1024,
          max (x1 (ix2 (0 : Fin 1) q) - x0 (ix2 p (0 : Fin 1))) 0 * k0_pay5 (F := Ideal) x2 x3 (ix2 p q) := by
  unfold k0_pay6
  (try dsimp only)
  refine (sum_tile _ y _ _ _ _ _ _).trans ?_
  refine Finset.sum_congr rfl fun p _ => Finset.sum_congr rfl fun q _ => ?_
  rw [mulf_apply, maximumf_apply, subf_apply, broadcast_apply, broadcastTo_1b_ab_apply, broadcastTo_a1_ab_apply,
    shapeCast_self, shapeCast_self]
  show max _ (Ideal.ofBits .f32 0x00000000#32) * _ = _
  rw [Ideal.ofBits_zero_f32]

/-- A [1, 1] array broadcast to [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The accumulator's step at entry (a, b): what was there, plus the tile's sum where the corner test holds, else plus
    zero. -/
theorem pay1_apply (s : FVec Ideal S1x1 .f32) (k : IVec S8x128 1) (old : Vec Ideal S8x128 .f32) (a : Fin 8) (b : Fin 128) :
    k0_pay1 (F := Ideal) s k old (ix2 a b)
      = old (ix2 a b) + Scalar.select (k (ix2 a b)) (s (ix2 (0 : Fin 1) (0 : Fin 1))) 0 := by
  unfold k0_pay1
  (try dsimp only)
  rw [addf_apply, select_apply, broadcast_apply, shapeCast_self, shapeCast_self, broadcastTo_11_ab_apply]
  show _ + Scalar.select _ _ (Ideal.ofBits .f32 0x00000000#32) = _
  rw [Ideal.ofBits_zero_f32]

/-- The second block's step is the same function as the first's. -/
theorem pay2_eq_pay1 : k0_pay2 (F := Ideal) = k0_pay1 (F := Ideal) := rfl

/-- The block of zeros the first point of a row of tiles stores. -/
theorem pay3_apply (y : S8x128.Idx) : k0_pay3 (F := Ideal) y = 0 := by
  show Ideal.ofBits .f32 0x00000000#32 = 0
  exact Ideal.ofBits_zero_f32

theorem pay4_apply (y : S8x128.Idx) : k0_pay4 (F := Ideal) y = 0 := by
  show Ideal.ofBits .f32 0x00000000#32 = 0
  exact Ideal.ofBits_zero_f32

/-- The corner test of entry (a, b) of a block: both coordinates are zero. -/
def corner (a b : ℕ) : BitVec 1 := IntOp.andi (BitVec.ofBool (decide (a = 0))) (BitVec.ofBool (decide (b = 0)))

theorem corner_zero : corner 0 0 = 1#1 := by decide

theorem corner_of_ne {a b : ℕ} (h : ¬(a = 0 ∧ b = 0)) : corner a b = 0#1 := by
  unfold corner
  by_cases ha : a = 0
  · have hb : ¬b = 0 := fun hb => h ⟨ha, hb⟩
    rw [decide_eq_true ha, decide_eq_false hb]; decide
  · rw [decide_eq_false ha]
    by_cases hb : b = 0
    · rw [decide_eq_true hb]; decide
    · rw [decide_eq_false hb]; decide

theorem row_word : ∀ a : Fin 8, IntOp.cmpi .eq (BitVec.ofNat 32 (0 * 8 + a.val)) 0#32 = BitVec.ofBool (decide (a.val = 0)) := by
  decide

theorem col_word : ∀ b : Fin 128, IntOp.cmpi .eq (BitVec.ofNat 32 (0 * 128 + b.val)) 0#32 = BitVec.ofBool (decide (b.val = 0)) := by
  decide

/-- The body's corner mask, from the two coordinate counters, is the corner test. -/
theorem pay8_apply (a : Fin 8) (b : Fin 128) : k0_pay8 (ix2 a b) = corner a.val b.val := by
  show IntOp.andi (IntOp.cmpi .eq (BitVec.ofNat 32 (0 * 8 + a.val)) 0#32) (IntOp.cmpi .eq (BitVec.ofNat 32 (0 * 128 + b.val)) 0#32) = _
  rw [row_word a, col_word b]
  rfl

end Cert.KernelIdeal.TileValue
-- ==== Proof.Accum.lean ====
/-
  The accumulator blocks after each grid point.

  Along a row of eight tiles the first block holds, at its corner entry, the running sum of the tiles' weight sums —
  started afresh at the row's first tile — and zero at every other entry; the second block holds the running sum of the
  tiles' counts in the same way. After the row's last tile the corner holds the whole row's sum.
-/
import proofs.«179149_j1803886265544_2_alg».proof.Proof.Gen.KernelIdeal.Frame
import proofs.«179149_j1803886265544_2_alg».proof.Proof.Pieces
import proofs.«179149_j1803886265544_2_alg».proof.Proof.TileValue

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.TileValue

variable (m : (ℓ : Loc nD τ sig) → Buf (Elt Ideal) ℓ)

/-- The weight sum of the tile at grid point `n` (zero past the grid). -/
def tW (c : Dev nD) (n : ℕ) : EReal :=
  if h : n < cfg0.N then
    k0_pay6 (F := Ideal) (iblk m c 0 ⟨n, h⟩) (iblk m c 1 ⟨n, h⟩) (iblk m c 2 ⟨n, h⟩) (iblk m c 3 ⟨n, h⟩) (ix2 (0 : Fin 1) (0 : Fin 1))
  else 0

/-- The count of the tile at grid point `n` (zero past the grid). -/
def tC (c : Dev nD) (n : ℕ) : EReal :=
  if h : n < cfg0.N then k0_pay7 (F := Ideal) (iblk m c 2 ⟨n, h⟩) (iblk m c 3 ⟨n, h⟩) (ix2 (0 : Fin 1) (0 : Fin 1)) else 0

/-- The running sum of a point-indexed quantity along rows of eight points: started from zero at every multiple of 8. -/
def run (f : ℕ → EReal) : ℕ → EReal
  | 0 => 0 + f 0
  | n + 1 => (if (n + 1) % 8 = 0 then 0 else run f n) + f (n + 1)

/-- A block holding `s` at its corner entry and zero elsewhere. -/
def blockOf (s : EReal) : Vec Ideal S8x128 .f32 := fun y => Scalar.select (k0_pay8 y) s 0

theorem step_zero (s : EReal) (k : BitVec 1) : (0 : EReal) + Scalar.select k s 0 = Scalar.select k (0 + s) 0 := by
  rcases BitVec.eq_zero_or_eq_one k with h | h <;> subst h
  · rw [select_zero, select_zero, zero_add]
  · rw [select_one, select_one]

theorem step_add (s u : EReal) (k : BitVec 1) : Scalar.select k s 0 + Scalar.select k u 0 = Scalar.select k (s + u) 0 := by
  rcases BitVec.eq_zero_or_eq_one k with h | h <;> subst h
  · rw [select_zero, select_zero, select_zero, zero_add]
  · rw [select_one, select_one, select_one]

/-- The four found pieces at a grid point, with the point's blocks. -/
theorem pieceA4 (c : Dev nD) (t : Fin cfg0.N) (hc : cond0_0 (grid0.coords t)) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk m c 0 t) (iblk m c 1 t) (iblk m c 2 t) (iblk m c 3 t)
      = k0_pay1 (k0_pay6 (iblk m c 0 t) (iblk m c 1 t) (iblk m c 2 t) (iblk m c 3 t)) k0_pay8 (k0_pay3 (F := Ideal)) :=
  Pieces.out_A_4 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk m c 0 t) (iblk m c 1 t) (iblk m c 2 t) (iblk m c 3 t)

theorem pieceA5 (c : Dev nD) (t : Fin cfg0.N) (hc : cond0_0 (grid0.coords t)) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk m c 0 t) (iblk m c 1 t) (iblk m c 2 t) (iblk m c 3 t)
      = k0_pay2 (k0_pay7 (iblk m c 2 t) (iblk m c 3 t)) k0_pay8 (k0_pay4 (F := Ideal)) :=
  Pieces.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk m c 0 t) (iblk m c 1 t) (iblk m c 2 t) (iblk m c 3 t)

theorem pieceB4 (c : Dev nD) (t : Fin cfg0.N) (hc : ¬cond0_0 (grid0.coords t)) (xo4 xo5 : Vec Ideal S8x128 .f32) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk m c 0 t) (iblk m c 1 t) (iblk m c 2 t) (iblk m c 3 t) xo4 xo5
      = k0_pay1 (k0_pay6 (iblk m c 0 t) (iblk m c 1 t) (iblk m c 2 t) (iblk m c 3 t)) k0_pay8 xo4 :=
  Pieces.out_B_4 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk m c 0 t) (iblk m c 1 t) (iblk m c 2 t) (iblk m c 3 t) xo4 xo5

theorem pieceB5 (c : Dev nD) (t : Fin cfg0.N) (hc : ¬cond0_0 (grid0.coords t)) (xo4 xo5 : Vec Ideal S8x128 .f32) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk m c 0 t) (iblk m c 1 t) (iblk m c 2 t) (iblk m c 3 t) xo4 xo5
      = k0_pay2 (k0_pay7 (iblk m c 2 t) (iblk m c 3 t)) k0_pay8 xo5 :=
  Pieces.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk m c 0 t) (iblk m c 1 t) (iblk m c 2 t) (iblk m c 3 t) xo4 xo5

/-- A row's first point: zeros plus the tile's sum at the corner. -/
theorem first_block (s : FVec Ideal S1x1 .f32) (z : Vec Ideal S8x128 .f32) (hz : ∀ y, z y = 0) (r : EReal)
    (hr : r = 0 + s (ix2 (0 : Fin 1) (0 : Fin 1))) : k0_pay1 (F := Ideal) s k0_pay8 z = blockOf r := by
  funext y
  obtain ⟨a, b, rfl⟩ : ∃ (a : Fin 8) (b : Fin 128), y = ix2 a b := ⟨y 0, y 1, eq_ix2 y⟩
  rw [pay1_apply, hz, step_zero, hr]
  rfl

/-- A later point: the block before plus the tile's sum at the corner. -/
theorem next_block (s : FVec Ideal S1x1 .f32) (p r : EReal) (hr : r = p + s (ix2 (0 : Fin 1) (0 : Fin 1))) :
    k0_pay1 (F := Ideal) s k0_pay8 (blockOf p) = blockOf r := by
  funext y
  obtain ⟨a, b, rfl⟩ : ∃ (a : Fin 8) (b : Fin 128), y = ix2 a b := ⟨y 0, y 1, eq_ix2 y⟩
  rw [pay1_apply]
  show Scalar.select (k0_pay8 (ix2 a b)) p 0 + _ = _
  rw [step_add, hr]
  rfl

/-- What the two accumulator blocks hold after point `n`: the running sums at the corner. -/
theorem outsAt_eq (c : Dev nD) : ∀ (n : ℕ) (h : n < cfg0.N),
    outsAt0 m c n h = (blockOf (run (tW m c) n), blockOf (run (tC m c) n))
  | 0, h => by
    rw [outsAt0_A m c ⟨0, h⟩ rfl, pieceA4 m c ⟨0, h⟩ _, pieceA5 m c ⟨0, h⟩ _, pay2_eq_pay1]
    refine Prod.ext ?_ ?_
    · exact first_block _ _ pay3_apply _ (by show 0 + tW m c 0 = _; rw [tW, dif_pos h])
    · exact first_block _ _ pay4_apply _ (by show 0 + tC m c 0 = _; rw [tC, dif_pos h])
  | n + 1, h => by
    by_cases h0 : (n + 1) % 8 = 0
    · rw [outsAt0_A m c ⟨n + 1, h⟩ h0, pieceA4 m c ⟨n + 1, h⟩ _, pieceA5 m c ⟨n + 1, h⟩ _, pay2_eq_pay1]
      refine Prod.ext ?_ ?_
      · exact first_block _ _ pay3_apply _ (by
          show (if (n + 1) % 8 = 0 then 0 else run (tW m c) n) + tW m c (n + 1) = _
          rw [if_pos h0, tW, dif_pos h])
      · exact first_block _ _ pay4_apply _ (by
          show (if (n + 1) % 8 = 0 then 0 else run (tC m c) n) + tC m c (n + 1) = _
          rw [if_pos h0, tC, dif_pos h])
    · rw [outsAt0_B m c ⟨n + 1, h⟩ h0, pieceB4 m c ⟨n + 1, h⟩ _, pieceB5 m c ⟨n + 1, h⟩ _, pay2_eq_pay1]
      have ih := outsAt_eq c n (Nat.lt_of_succ_lt h)
      refine Prod.ext ?_ ?_
      · show k0_pay1 (F := Ideal) _ k0_pay8 (outsAt0 m c n _).1 = _
        rw [ih]
        exact next_block _ _ _ (by
          show (if (n + 1) % 8 = 0 then 0 else run (tW m c) n) + tW m c (n + 1) = _
          rw [if_neg h0, tW, dif_pos h])
      · show k0_pay1 (F := Ideal) _ k0_pay8 (outsAt0 m c n _).2 = _
        rw [ih]
        exact next_block _ _ _ (by
          show (if (n + 1) % 8 = 0 then 0 else run (tC m c) n) + tC m c (n + 1) = _
          rw [if_neg h0, tC, dif_pos h])

/-- After the point at offset `J` of row `I` the running sum is the sum of the row's first `J + 1` values. -/
theorem run_row (f : ℕ → EReal) (I : ℕ) : ∀ J, J < 8 → run f (8 * I + J) = ∑ s ∈ Finset.range (J + 1), f (8 * I + s)
  | 0, _ => by
    rw [Finset.sum_range_one, Nat.add_zero]
    cases I with
    | zero => show 0 + f 0 = f (8 * 0); rw [zero_add]
    | succ I =>
      have e : 8 * (I + 1) = (8 * I + 7) + 1 := by omega
      rw [e]
      show (if (8 * I + 7 + 1) % 8 = 0 then 0 else run f (8 * I + 7)) + f (8 * I + 7 + 1) = _
      rw [if_pos (by omega), zero_add]
  | J + 1, hJ => by
    have e : 8 * I + (J + 1) = (8 * I + J) + 1 := by omega
    rw [e]
    show (if (8 * I + J + 1) % 8 = 0 then 0 else run f (8 * I + J)) + f (8 * I + J + 1) = _
    rw [if_neg (by omega), run_row f I J (by omega), Finset.sum_range_succ _ (J + 1)]
    rfl

end Cert.KernelIdeal.Accum
-- ==== Proof.Arrays.lean ====
/-
  The two arrays the region leaves.

  Each row of eight tiles writes its accumulator blocks back once, after its last tile: block I of the first array
  then holds the row's weight sum at its corner entry (8 I, 0) and zero at its other 1023 entries; block I of the
  second array holds the row's count likewise.
-/
import proofs.«179149_j1803886265544_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.TileValue Cert.KernelIdeal.Accum

variable (m : (ℓ : Loc nD τ sig) → Buf (Elt Ideal) ℓ)

/-- The weight sum of row `I` of tiles. -/
def rowW (c : Dev nD) (I : ℕ) : EReal := ∑ s ∈ Finset.range (7 + 1), tW m c (8 * I + s)

/-- The count of row `I` of tiles. -/
def rowC (c : Dev nD) (I : ℕ) : EReal := ∑ s ∈ Finset.range (7 + 1), tC m c (8 * I + s)

/-- Where output 0's block of point `t` sits: row block `t / 8`, the one column block. -/
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- The array the region leaves: in each block of 8 rows the row of tiles' sum at the block's corner, zero elsewhere. -/
def sumArr (c : Dev nD) : S64x128.Idx → EReal := fun i =>
  Scalar.select (corner ((i 0).val % 8) (i 1).val) (rowW m c ((i 0).val / 8)) 0

/-- What a writing-back point (the last of its row of tiles) writes is its block of that array. -/
theorem flushed4_eq (c : Dev nD) (t : Fin cfg0.N) (hf : (cfg0.win 4).flush t = true) :
    (dats m 0 c).flushed 4 t = ((cfg0.win 4).blk t).view.read (Elt Ideal) (sumArr m c) := by
  have h7 : t.val % 8 = 7 := (flush0_4 t).mp hf
  have hN : t.val < 64 := lt_of_lt_of_eq t.isLt N_0
  show (cfg0.win 4).cut (grid0.coords t) ((dats m 0 c).after 4 t) = _
  rw [after0_4, outsAt_eq]
  obtain ⟨e0, e1⟩ := idx4 t
  have ht : t.val = 8 * (t.val / 8) + 7 := by omega
  have hr : run (tW m c) t.val = rowW m c (t.val / 8) := by
    have h := run_row (tW m c) (t.val / 8) 7 (by omega)
    rw [← ht] at h
    exact h
  funext j
  obtain ⟨a, b, hab⟩ : ∃ (a : Fin 8) (b : Fin 128), j = ix2 a b := ⟨j 0, j 1, eq_ix2 j⟩
  subst hab
  have c0 : ((((cfg0.win 4).blk t).view.emb (ix2 a b)) 0).val = win0_4.index t (0 : Fin 2) * 8 + 1 * a.val := rfl
  have c1 : ((((cfg0.win 4).blk t).view.emb (ix2 a b)) 1).val = win0_4.index t (1 : Fin 2) * 128 + 1 * b.val := rfl
  show Scalar.select (k0_pay8 (ix2 a b)) (run (tW m c) t.val) 0
    = Scalar.select (corner (((((cfg0.win 4).blk t).view.emb (ix2 a b)) 0).val % 8) ((((cfg0.win 4).blk t).view.emb (ix2 a b)) 1).val)
        (rowW m c (((((cfg0.win 4).blk t).view.emb (ix2 a b)) 0).val / 8)) 0
  rw [c0, c1, e0, e1, pay8_apply, hr]
  have ha : a.val < 8 := a.isLt
  have q0 : (t.val / 8 * 8 + 1 * a.val) % 8 = a.val := by omega
  have q1 : (t.val / 8 * 8 + 1 * a.val) / 8 = t.val / 8 := by omega
  have q2 : 0 * 128 + 1 * b.val = b.val := by omega
  rw [q0, q1, q2]

/-- The writing-back points' blocks cover the array: row `r` is in the block of the last point of row block `r / 8`. -/
theorem cover4 (c : Dev nD) (i : S64x128.Idx) :
    ∃ t : Fin cfg0.N, (cfg0.win 4).flush t = true ∧ i ∈ ((cfg0.win 4).blk t).view.set := by
  have h0 : (i 0).val < 64 := (i 0).isLt
  have h1 : (i 1).val < 128 := (i 1).isLt
  obtain ⟨t, ht⟩ : ∃ t : Fin cfg0.N, t.val = 8 * ((i 0).val / 8) + 7 :=
    ⟨⟨8 * ((i 0).val / 8) + 7, lt_of_lt_of_eq (by omega : 8 * ((i 0).val / 8) + 7 < 64) N_0.symm⟩, rfl⟩
  obtain ⟨e0, e1⟩ := idx4 t
  refine ⟨t, (flush0_4 t).mpr (by omega), ?_⟩
  show i ∈ ((View.whole main_v10_0).slice (win0_4.rect t)).set
  rw [View.set_slice_whole, Rect.mem_set_unit]
  intro ax
  match ax with
  | ⟨0, _⟩ =>
    show win0_4.index t (0 : Fin 2) * 8 ≤ (i 0).val ∧ (i 0).val < win0_4.index t (0 : Fin 2) * 8 + 8
    rw [e0]; omega
  | ⟨1, _⟩ =>
    show win0_4.index t (1 : Fin 2) * 128 ≤ (i 1).val ∧ (i 1).val < win0_4.index t (1 : Fin 2) * 128 + 128
    rw [e1]; omega

/-- So the array after the region is that array. -/
theorem final4 (c : Dev nD) : (dats m 0 c).arrAt 4 cfg0.N = sumArr m c :=
  (dats m 0 c).arrAt_eq_of_cover 4 (sumArr m c) (flushed4_eq m c) (cover4 c)

/-- Where output 1's block of point `t` sits: row block `t / 8`, the one column block. -/
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- The array the region leaves: in each block of 8 rows the row of tiles' sum at the block's corner, zero elsewhere. -/
def cntArr (c : Dev nD) : S64x128.Idx → EReal := fun i =>
  Scalar.select (corner ((i 0).val % 8) (i 1).val) (rowC m c ((i 0).val / 8)) 0

/-- What a writing-back point (the last of its row of tiles) writes is its block of that array. -/
theorem flushed5_eq (c : Dev nD) (t : Fin cfg0.N) (hf : (cfg0.win 5).flush t = true) :
    (dats m 0 c).flushed 5 t = ((cfg0.win 5).blk t).view.read (Elt Ideal) (cntArr m c) := by
  have h7 : t.val % 8 = 7 := (flush0_5 t).mp hf
  have hN : t.val < 64 := lt_of_lt_of_eq t.isLt N_0
  show (cfg0.win 5).cut (grid0.coords t) ((dats m 0 c).after 5 t) = _
  rw [after0_5, outsAt_eq]
  obtain ⟨e0, e1⟩ := idx5 t
  have ht : t.val = 8 * (t.val / 8) + 7 := by omega
  have hr : run (tC m c) t.val = rowC m c (t.val / 8) := by
    have h := run_row (tC m c) (t.val / 8) 7 (by omega)
    rw [← ht] at h
    exact h
  funext j
  obtain ⟨a, b, hab⟩ : ∃ (a : Fin 8) (b : Fin 128), j = ix2 a b := ⟨j 0, j 1, eq_ix2 j⟩
  subst hab
  have c0 : ((((cfg0.win 5).blk t).view.emb (ix2 a b)) 0).val = win0_5.index t (0 : Fin 2) * 8 + 1 * a.val := rfl
  have c1 : ((((cfg0.win 5).blk t).view.emb (ix2 a b)) 1).val = win0_5.index t (1 : Fin 2) * 128 + 1 * b.val := rfl
  show Scalar.select (k0_pay8 (ix2 a b)) (run (tC m c) t.val) 0
    = Scalar.select (corner (((((cfg0.win 5).blk t).view.emb (ix2 a b)) 0).val % 8) ((((cfg0.win 5).blk t).view.emb (ix2 a b)) 1).val)
        (rowC m c (((((cfg0.win 5).blk t).view.emb (ix2 a b)) 0).val / 8)) 0
  rw [c0, c1, e0, e1, pay8_apply, hr]
  have ha : a.val < 8 := a.isLt
  have q0 : (t.val / 8 * 8 + 1 * a.val) % 8 = a.val := by omega
  have q1 : (t.val / 8 * 8 + 1 * a.val) / 8 = t.val / 8 := by omega
  have q2 : 0 * 128 + 1 * b.val = b.val := by omega
  rw [q0, q1, q2]

/-- The writing-back points' blocks cover the array: row `r` is in the block of the last point of row block `r / 8`. -/
theorem cover5 (c : Dev nD) (i : S64x128.Idx) :
    ∃ t : Fin cfg0.N, (cfg0.win 5).flush t = true ∧ i ∈ ((cfg0.win 5).blk t).view.set := by
  have h0 : (i 0).val < 64 := (i 0).isLt
  have h1 : (i 1).val < 128 := (i 1).isLt
  obtain ⟨t, ht⟩ : ∃ t : Fin cfg0.N, t.val = 8 * ((i 0).val / 8) + 7 :=
    ⟨⟨8 * ((i 0).val / 8) + 7, lt_of_lt_of_eq (by omega : 8 * ((i 0).val / 8) + 7 < 64) N_0.symm⟩, rfl⟩
  obtain ⟨e0, e1⟩ := idx5 t
  refine ⟨t, (flush0_5 t).mpr (by omega), ?_⟩
  show i ∈ ((View.whole main_v10_1).slice (win0_5.rect t)).set
  rw [View.set_slice_whole, Rect.mem_set_unit]
  intro ax
  match ax with
  | ⟨0, _⟩ =>
    show win0_5.index t (0 : Fin 2) * 8 ≤ (i 0).val ∧ (i 0).val < win0_5.index t (0 : Fin 2) * 8 + 8
    rw [e0]; omega
  | ⟨1, _⟩ =>
    show win0_5.index t (1 : Fin 2) * 128 ≤ (i 1).val ∧ (i 1).val < win0_5.index t (1 : Fin 2) * 128 + 128
    rw [e1]; omega

/-- So the array after the region is that array. -/
theorem final5 (c : Dev nD) : (dats m 0 c).arrAt 5 cfg0.N = cntArr m c :=
  (dats m 0 c).arrAt_eq_of_cover 5 (cntArr m c) (flushed5_eq m c) (cover5 c)

end Cert.KernelIdeal.Arrays
-- ==== Proof.HostTail.lean ====
/-
  The kernel program's result from the two arrays the region leaves.

  After the region the host sums the first array into the total weight; it sums each block of 1024 entries of the
  second array into that row block's count, converts the eight counts to integers and adds them; the result is the
  total divided by the count when the count is positive, else zero.
-/
import proofs.«179149_j1803886265544_2_alg».proof.Proof.Arrays
import proofs.«179149_j1803886265544_2_alg».proof.Proof.Loss
import proofs.«179149_j1803886265544_2_alg».proof.Proof.LibTyped
import proofs.«179149_j1803886265544_2_alg».proof.Proof.LibTypedLit
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.HostTail

open Cert.KernelIdeal Cert.KernelIdeal.Gen Cert.KernelIdeal.Arrays

variable (m : (ℓ : Loc nD τ sig) → Buf (Elt Ideal) ℓ)

/-- The total weight the host forms from the first array. -/
def totOf (A : S64x128.Idx → EReal) : S_.Idx → EReal :=
  Host.reduceAdd (F := Ideal) A (constant (F := Ideal) S_ .f32 0x00000000#32) reducesTo_S64x128_S_d0_1 h_S_

/-- The count word the host forms from the second array. -/
def cntOf (B : S64x128.Idx → EReal) : S_.Idx → BitVec 32 :=
  Host.reduce IntOp.addi
    (fptosi (F := Ideal) 32 (Host.reduceAdd (F := Ideal) (shapeCast S8x1024 B shapeCasts_S64x128_S8x1024)
      (constant (F := Ideal) S_ .f32 0x00000000#32) reducesTo_S8x1024_S8_d1 h_S_))
    (constantI S_ 32 0#32) reducesTo_S8_S_d0 h_S_

/-- The host's operations after the region, over any contents of the buffers: the result from the two arrays. -/
theorem tail_any (W : Valuation τ sig (Elt Ideal)) :
    StableHlo.after (List.flatten [hostOps1, hostOps1_1]) W (Proc.devRef .tc main_v19)
      = Cert.Loss.lossTail (totOf (W (Proc.devRef .tc main_v10_0))) (cntOf (W (Proc.devRef .tc main_v10_1))) := by
  simp only [Gen.hostOps1, Gen.hostOps1_1, List.flatten_cons, List.flatten_nil, List.append_nil, List.cons_append,
    List.nil_append]
  after_results
  simp only [Cert.LibTyped.ofBuf_toBuf]
  (repeat rw [Cert.LibTypedLit.toBuf_of])
  (repeat rw [Cert.LibTypedLit.ofBuf_of])
  first | done | rfl

/-- The program's result: the loss of the region's two arrays. -/
theorem result_eq (c : Dev nD) :
    Pipeline.afterTail₀ cfgs (dats m) 0 (V0 m) [hostOps1, hostOps1_1] c main_v19
      = Cert.Loss.lossTail (totOf (sumArr m c)) (cntOf (cntArr m c)) := by
  unfold Pipeline.afterTail₀
  refine (tail_any _).trans ?_
  have e4 := (Pipeline.withArrays_arr spec0 launch0.win.arr_inj c (V0 m c) (fun w => (dats m 0 c).arrAt w cfg0.N) 4).trans (final4 m c)
  have e5 := (Pipeline.withArrays_arr spec0 launch0.win.arr_inj c (V0 m c) (fun w => (dats m 0 c).arrAt w cfg0.N) 5).trans (final5 m c)
  exact congrArg₂ (fun A B => Cert.Loss.lossTail (totOf A) (cntOf B)) e4 e5

end Cert.KernelIdeal.HostTail
-- ==== Proof.ArraySums.lean ====
/-
  The host's sums of the two arrays.

  An array that holds, in each block of 8 rows, one number at the block's corner and zero at the other 1023 entries
  sums to the sum of the eight numbers; and its I-th stretch of 1024 entries in row-major order — block I — sums to
  the I-th number. So the total weight is the sum of the rows of tiles' weight sums, and the count is the word of the
  sum of the rows' counts.
-/
import proofs.«179149_j1803886265544_2_alg».proof.Proof.HostTail
import proofs.«179149_j1803886265544_2_alg».proof.Proof.PairSums
import proofs.«179149_j1803886265544_2_alg».proof.Proof.LibSums
import Idealize.ShloMosaic.Lib.ReduceAll
import Idealize.ShloMosaic.PureOps.Reduce

noncomputable section

open Idealize.ShloMosaic Idealize.ShloMosaic.ValueIdx

namespace Cert.KernelIdeal.ArraySums

open Cert.KernelIdeal Cert.KernelIdeal.Gen Cert.KernelIdeal.TileValue Cert.KernelIdeal.Arrays Cert.KernelIdeal.HostTail
open Cert.LibBlocks

instance : Subsingleton S_.Idx := ⟨fun a b => funext fun d => d.elim0⟩

/-- The array holding `f I` at the corner of block `I` and zero elsewhere. -/
def cornerArr (f : ℕ → EReal) : S64x128.Idx → EReal := fun i =>
  Scalar.select (corner ((i 0).val % 8) (i 1).val) (f ((i 0).val / 8)) 0

/-- A block's entries sum to its corner's number. -/
theorem corner_sum (s : EReal) : ∑ a : Fin 8, ∑ l : Fin 128, Scalar.select (corner a.val l.val) s 0 = s := by
  rw [Finset.sum_eq_single (0 : Fin 8)]
  · rw [Finset.sum_eq_single (0 : Fin 128)]
    · show Scalar.select (corner 0 0) s 0 = s
      rw [corner_zero, select_one]
    · intro l _ hl
      rw [corner_of_ne (fun h => hl (Fin.ext h.2)), select_zero]
    · intro h; exact absurd (Finset.mem_univ _) h
  · intro a _ ha
    refine Finset.sum_eq_zero fun l _ => ?_
    rw [corner_of_ne (fun h => ha (Fin.ext h.1)), select_zero]
  · intro h; exact absurd (Finset.mem_univ _) h

/-- The whole array sums to the sum of the blocks' numbers. -/
theorem sum_cornerArr (f : ℕ → EReal) : ∑ i : S64x128.Idx, cornerArr f i = ∑ I : Fin 8, f I.val := by
  rw [sum_idx2]
  refine (sum_entries (A := 8) (B := 8) (fun a : Fin 64 => ∑ b : Fin 128, cornerArr f (ix2 a b))).trans ?_
  refine Finset.sum_congr rfl fun I _ => ?_
  refine Eq.trans (Finset.sum_congr rfl fun a _ => Finset.sum_congr rfl fun l _ => ?_) (corner_sum (f I.val))
  show Scalar.select (corner ((I.val * 8 + a.val) % 8) l.val) (f ((I.val * 8 + a.val) / 8)) 0
    = Scalar.select (corner a.val l.val) (f I.val) 0
  have ha := a.isLt
  rw [show (I.val * 8 + a.val) % 8 = a.val by omega, show (I.val * 8 + a.val) / 8 = I.val by omega]

/-- Row `I` of the array laid out as 8 rows of 1024 entries is block `I`, and sums to the block's number. -/
theorem sum_block_cornerArr (f : ℕ → EReal) (I : Fin 8) (h : S64x128.ShapeCasts S8x1024) :
    ∑ k : Fin 1024, shapeCast S8x1024 (cornerArr f) h (ix2 I k) = f I.val := by
  refine (sum_entries (A := 8) (B := 128) (fun k : Fin 1024 => shapeCast S8x1024 (cornerArr f) h (ix2 I k))).trans ?_
  refine Eq.trans (Finset.sum_congr rfl fun a _ => Finset.sum_congr rfl fun l _ => ?_) (corner_sum (f I.val))
  have ha := a.isLt
  have hl := l.isLt
  have hI := I.isLt
  refine (shapeCast_apply (cornerArr f) h (ix2 I (entry a l)) (ix2 (⟨8 * I.val + a.val, by omega⟩ : Fin 64) l) ?_).trans ?_
  · rw [Shape.rowMajor_val_two, Shape.rowMajor_val_two]
    show (8 * I.val + a.val) * 128 + l.val = I.val * 1024 + (a.val * 128 + l.val)
    omega
  · show Scalar.select (corner ((8 * I.val + a.val) % 8) l.val) (f ((8 * I.val + a.val) / 8)) 0 = _
    rw [show (8 * I.val + a.val) % 8 = a.val by omega, show (8 * I.val + a.val) / 8 = I.val by omega]

/-- The host's total of an array: zero plus the sum of its entries. -/
theorem totOf_apply (A : S64x128.Idx → EReal) (i : S_.Idx) : totOf A i = 0 + ∑ j : S64x128.Idx, A j := by
  unfold totOf
  simp only [Host.reduceAdd, Ideal.hostReduceAdd_def]
  refine (Ideal.hostReduceAdd_total reducesTo_S64x128_S_d0_1 (fun b => b.elim0) A _ i).trans ?_
  show Ideal.ofBits .f32 0x00000000#32 + _ = _
  rw [Ideal.ofBits_zero_f32]

/-- One row of the array laid out as 8 rows of 1024 entries, summed by the host: zero plus the row's sum. -/
theorem rowSum_apply (X : S8x1024.Idx → EReal) (I : Fin 8) :
    Host.reduceAdd (F := Ideal) X (constant (F := Ideal) S_ .f32 0x00000000#32) reducesTo_S8x1024_S8_d1 h_S_ (ix1 I)
      = 0 + ∑ k : Fin 1024, X (ix2 I k) := by
  simp only [Host.reduceAdd, Ideal.hostReduceAdd_def]
  rw [Ideal.hostReduceAdd_single reducesTo_S8x1024_S8_d1 (by decide)]
  show Ideal.ofBits .f32 0x00000000#32 + ∑ k : Fin 1024, _ = _
  rw [Ideal.ofBits_zero_f32]
  refine congrArg (0 + ·) (Finset.sum_congr rfl fun k _ => ?_)
  exact congrArg X (funext fun a => Fin.ext (by match a with | ⟨0, _⟩ => rfl | ⟨1, _⟩ => rfl))

/-- The host's count word of an array whose 8 blocks sum to natural numbers below 2^31: the word of their sum. -/
theorem cntOf_apply (B : S64x128.Idx → EReal) (n : Fin 8 → ℕ) (hn : ∀ I, n I < 2 ^ 31)
    (hB : ∀ I : Fin 8, ∑ k : Fin 1024, shapeCast S8x1024 B shapeCasts_S64x128_S8x1024 (ix2 I k) = ((n I : ℕ) : EReal))
    (i : S_.Idx) : cntOf B i = BitVec.ofNat 32 (∑ I : Fin 8, n I) := by
  unfold cntOf
  rw [Host.reduce_eq_fold, Finset.filter_true_of_mem (fun j _ => Subsingleton.elim _ _)]
  have e : (fptosi (F := Ideal) 32 (Host.reduceAdd (F := Ideal) (shapeCast S8x1024 B shapeCasts_S64x128_S8x1024)
      (constant (F := Ideal) S_ .f32 0x00000000#32) reducesTo_S8x1024_S8_d1 h_S_) : S8.Idx → BitVec 32)
      = fun I' => BitVec.ofNat 32 (n (I' 0)) := funext fun I' => by
    obtain ⟨I, rfl⟩ : ∃ I : Fin 8, I' = ix1 I := ⟨I' 0, eq_ix1 I'⟩
    show Ideal.fptosi 32 (Host.reduceAdd (F := Ideal) _ _ reducesTo_S8x1024_S8_d1 h_S_ (ix1 I)) = _
    rw [rowSum_apply, hB, zero_add]
    exact Cert.LibWords.fptosi_natCast _ (hn I)
  rw [e]
  show (Finset.univ : Finset S8.Idx).fold IntOp.addi (0#32) (fun I' => BitVec.ofNat 32 (n (I' 0))) = _
  rw [Cert.LibWords.fold_addi_ofNat, Cert.LibSums.sum_idx1]

end Cert.KernelIdeal.ArraySums
-- ==== Proof.HostPrefix.lean ====
/-
  The four arrays the region is launched on, from the program's arguments.

  Before the region the host sums each sample's four hazards into its risk, replaces the label of every censored
  sample by 4, adds the zero margin to the risks, and lays the four vectors out as columns and rows: the risks as a
  column, the risks plus the margin as a row, the effective labels as a column, the labels as a row.
-/
import proofs.«179149_j1803886265544_2_alg».proof.Proof.Gen.KernelIdeal.Frame
import proofs.«179149_j1803886265544_2_alg».proof.Proof.LibTyped
import proofs.«179149_j1803886265544_2_alg».proof.Proof.LibTypedLit
import Idealize.ShloMosaic.Lib.StableHlo.Run
import Idealize.ShloMosaic.PureOps.Ideal
import Idealize.ShloMosaic.PureOps.Ideal.Laws

noncomputable section

open Idealize.ShloMosaic Idealize.ShloMosaic.TcCoe Idealize.SL.Sem Idealize.ShloMosaic.StableHlo

namespace Cert.KernelIdeal.HostPrefix

open Cert.KernelIdeal Cert.KernelIdeal.Gen

variable (m : (ℓ : Loc nD τ sig) → Buf (Elt Ideal) ℓ)

/-- The samples' risks: each sample's four hazards summed, from zero. -/
def risk (c : Dev nD) : S8192.Idx → EReal :=
  Host.reduceAdd (F := Ideal) (m ((c : Thread nD τ).loc main_arg0)) (constant (F := Ideal) S_ .f32 0x00000000#32)
    reducesTo_S8192x4_S8192_d1 h_S_

/-- The risks with the margin (zero) added. -/
def riskRow (c : Dev nD) : S8192.Idx → EReal :=
  addf (risk m c) (broadcastInDim S8192 ![] bcast_S_S8192 (constant (F := Ideal) S_ .f32 0x00000000#32))

/-- The effective labels: a sample's label where its censoring flag is 0, else 4. -/
def yeffArr (c : Dev nD) : S8192.Idx → BitVec 32 :=
  select (cmpi .eq (m ((c : Thread nD τ).loc main_arg3)) (broadcastInDim S8192 ![] bcast_S_S8192 (constantI S_ 32 0#32)))
    (m ((c : Thread nD τ).loc main_arg2)) (broadcastInDim S8192 ![] bcast_S_S8192 (constantI S_ 32 4#32))

theorem V6 (c : Dev nD) : (V m c main_v6 : S8192x1.Idx → EReal) = shapeCast S8192x1 (risk m c) shapeCasts_S8192_S8192x1 := by
  dsimp only [Gen.V, Gen.V0]
  simp only [Gen.hostOps0, Gen.hostOps0_1, Gen.hostOps0_2, List.flatten_cons, List.flatten_nil, List.append_nil,
    List.cons_append, List.nil_append]
  after_results
  rfl

theorem V7 (c : Dev nD) : (V m c main_v7 : S1x8192.Idx → EReal) = shapeCast S1x8192 (riskRow m c) shapeCasts_S8192_S1x8192 := by
  dsimp only [Gen.V, Gen.V0]
  simp only [Gen.hostOps0, Gen.hostOps0_1, Gen.hostOps0_2, List.flatten_cons, List.flatten_nil, List.append_nil,
    List.cons_append, List.nil_append]
  after_results
  rfl

theorem V8 (c : Dev nD) : (V m c main_v8 : S8192x1.Idx → BitVec 32) = shapeCast S8192x1 (yeffArr m c) shapeCasts_S8192_S8192x1 := by
  dsimp only [Gen.V, Gen.V0]
  simp only [Gen.hostOps0, Gen.hostOps0_1, Gen.hostOps0_2, List.flatten_cons, List.flatten_nil, List.append_nil,
    List.cons_append, List.nil_append]
  after_results
  simp only [Cert.LibTyped.ofBuf_toBuf]
  (repeat rw [Cert.LibTypedLit.toBuf_of])
  (repeat rw [Cert.LibTypedLit.ofBuf_of])
  first | done | rfl

theorem V9 (c : Dev nD) :
    (V m c main_v9 : S1x8192.Idx → BitVec 32) = shapeCast S1x8192 (m ((c : Thread nD τ).loc main_arg2)) shapeCasts_S8192_S1x8192 := by
  dsimp only [Gen.V, Gen.V0]
  simp only [Gen.hostOps0, Gen.hostOps0_1, Gen.hostOps0_2, List.flatten_cons, List.flatten_nil, List.append_nil,
    List.cons_append, List.nil_append]
  after_results
  rfl

end Cert.KernelIdeal.HostPrefix
-- ==== Proof.Inputs.lean ====
/-
  The tiles of the kernel are the tiles of the pairwise sums.

  At the grid point of row block I and column block J the four windows hold samples 1024 I .. 1024 I + 1023 of the
  risks and of the effective labels (as columns) and samples 1024 J .. 1024 J + 1023 of the risks plus the margin and of
  the labels (as rows); so the tile's weight sum and count are the pairwise sums' tile (I, J).
-/
import proofs.«179149_j1803886265544_2_alg».proof.Proof.Accum
import proofs.«179149_j1803886265544_2_alg».proof.Proof.Arrays
import proofs.«179149_j1803886265544_2_alg».proof.Proof.HostPrefix
import proofs.«179149_j1803886265544_2_alg».proof.Proof.PairSums
import proofs.«179149_j1803886265544_2_alg».proof.Proof.LibLayout
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Inputs

open Cert.KernelIdeal Cert.KernelIdeal.Gen Cert.KernelIdeal.TileValue Cert.KernelIdeal.Accum Cert.KernelIdeal.Arrays
open Cert.KernelIdeal.HostPrefix Cert.PairSums

variable (m : (ℓ : Loc nD τ sig) → Buf (Elt Ideal) ℓ)

/-- Where the four input windows' blocks of point `t` sit: the columns at row block `t / 8`, the rows at column block
    `t % 8`. -/
theorem idxIn : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8)

/-- The samples' risks, labels and censoring flags, by sample number. -/
def r (c : Dev nD) : Fin 8192 → EReal := fun k => risk m c (ix1 k)
def Y (c : Dev nD) : Fin 8192 → BitVec 32 := fun k => (m ((c : Thread nD τ).loc main_arg2) : S8192.Idx → BitVec 32) (ix1 k)
def cf (c : Dev nD) : Fin 8192 → BitVec 32 := fun k => (m ((c : Thread nD τ).loc main_arg3) : S8192.Idx → BitVec 32) (ix1 k)

/-- Window 0's block: the risks of row block `I`. -/
theorem blk0 (c : Dev nD) (t : Fin cfg0.N) (I : Fin 8) (hI : I.val = t.val / 8) (p : Fin 1024) :
    iblk m c 0 t (ix2 p (0 : Fin 1)) = r m c (row I p) := by
  obtain ⟨e0, e1, -⟩ := idxIn t
  have he : ((cfg0.win 0).blk t).view.emb (ix2 p (0 : Fin 1)) = ix2 (row I p) (0 : Fin 1) := funext fun a => Fin.ext (by
    match a with
    | ⟨0, _⟩ => show win0_0.index t (0 : Fin 2) * 1024 + 1 * p.val = I.val * 1024 + p.val; rw [e0, hI]; omega
    | ⟨1, _⟩ => show win0_0.index t (1 : Fin 2) * 1 + 1 * 0 = 0; rw [e1])
  show V m c main_v6 (((cfg0.win 0).blk t).view.emb (ix2 p (0 : Fin 1))) = _
  rw [he]
  refine (congrFun (V6 m c) _).trans ?_
  rw [shapeCast_a_a1_apply]
  rfl

/-- Window 1's block: the risks plus the margin of column block `J`. -/
theorem blk1 (c : Dev nD) (t : Fin cfg0.N) (J : Fin 8) (hJ : J.val = t.val % 8) (q : Fin 1024) :
    iblk m c 1 t (ix2 (0 : Fin 1) q) = r m c (row J q) + 0 := by
  obtain ⟨-, -, e0, e1, -⟩ := idxIn t
  have he : ((cfg0.win 1).blk t).view.emb (ix2 (0 : Fin 1) q) = ix2 (0 : Fin 1) (row J q) := funext fun a => Fin.ext (by
    match a with
    | ⟨0, _⟩ => show win0_1.index t (0 : Fin 2) * 1 + 1 * 0 = 0; rw [e0]
    | ⟨1, _⟩ => show win0_1.index t (1 : Fin 2) * 1024 + 1 * q.val = J.val * 1024 + q.val; rw [e1, hJ]; omega)
  show V m c main_v7 (((cfg0.win 1).blk t).view.emb (ix2 (0 : Fin 1) q)) = _
  rw [he]
  refine (congrFun (V7 m c) _).trans ?_
  rw [shapeCast_a_1a_apply]
  show risk m c (ix1 (row J q)) + Ideal.ofBits .f32 0x00000000#32 = _
  rw [Ideal.ofBits_zero_f32]
  rfl

/-- Window 2's block: the effective labels of row block `I`. -/
theorem blk2 (c : Dev nD) (t : Fin cfg0.N) (I : Fin 8) (hI : I.val = t.val / 8) (p : Fin 1024) :
    iblk m c 2 t (ix2 p (0 : Fin 1)) = yeff (Y m c) (cf m c) (row I p) := by
  obtain ⟨-, -, -, -, e0, e1, -⟩ := idxIn t
  have he : ((cfg0.win 2).blk t).view.emb (ix2 p (0 : Fin 1)) = ix2 (row I p) (0 : Fin 1) := funext fun a => Fin.ext (by
    match a with
    | ⟨0, _⟩ => show win0_2.index t (0 : Fin 2) * 1024 + 1 * p.val = I.val * 1024 + p.val; rw [e0, hI]; omega
    | ⟨1, _⟩ => show win0_2.index t (1 : Fin 2) * 1 + 1 * 0 = 0; rw [e1])
  show V m c main_v8 (((cfg0.win 2).blk t).view.emb (ix2 p (0 : Fin 1))) = _
  rw [he]
  refine (congrFun (V8 m c) _).trans ?_
  rw [shapeCast_a_a1_apply]
  rfl

/-- Window 3's block: the labels of column block `J`. -/
theorem blk3 (c : Dev nD) (t : Fin cfg0.N) (J : Fin 8) (hJ : J.val = t.val % 8) (q : Fin 1024) :
    iblk m c 3 t (ix2 (0 : Fin 1) q) = Y m c (row J q) := by
  obtain ⟨-, -, -, -, -, -, e0, e1⟩ := idxIn t
  have he : ((cfg0.win 3).blk t).view.emb (ix2 (0 : Fin 1) q) = ix2 (0 : Fin 1) (row J q) := funext fun a => Fin.ext (by
    match a with
    | ⟨0, _⟩ => show win0_3.index t (0 : Fin 2) * 1 + 1 * 0 = 0; rw [e0]
    | ⟨1, _⟩ => show win0_3.index t (1 : Fin 2) * 1024 + 1 * q.val = J.val * 1024 + q.val; rw [e1, hJ]; omega)
  show V m c main_v9 (((cfg0.win 3).blk t).view.emb (ix2 (0 : Fin 1) q)) = _
  rw [he]
  refine (congrFun (V9 m c) _).trans ?_
  rw [shapeCast_a_1a_apply]
  rfl

/-- The point of tile (I, J). -/
theorem point_lt (I J : Fin 8) : 8 * I.val + J.val < cfg0.N := lt_of_lt_of_eq (by omega : 8 * I.val + J.val < 64) N_0.symm

/-- The tile's weight sum is the pairwise sums' tile. -/
theorem tW_eq (c : Dev nD) (I J : Fin 8) : tW m c (8 * I.val + J.val) = tileW (r m c) (Y m c) (cf m c) I J := by
  rw [tW, dif_pos (point_lt I J), pay6_apply]
  unfold tileW
  refine Finset.sum_congr rfl fun p _ => Finset.sum_congr rfl fun q _ => ?_
  rw [pay5_apply, blk0 m c ⟨_, point_lt I J⟩ I (by show I.val = (8 * I.val + J.val) / 8; omega) p,
    blk1 m c ⟨_, point_lt I J⟩ J (by show J.val = (8 * I.val + J.val) % 8; omega) q,
    blk2 m c ⟨_, point_lt I J⟩ I (by show I.val = (8 * I.val + J.val) / 8; omega) p,
    blk3 m c ⟨_, point_lt I J⟩ J (by show J.val = (8 * I.val + J.val) % 8; omega) q]
  rfl

/-- The tile's count is the pairwise sums' tile count. -/
theorem tC_eq (c : Dev nD) (I J : Fin 8) : tC m c (8 * I.val + J.val) = tileC (Y m c) (cf m c) I J := by
  rw [tC, dif_pos (point_lt I J), pay7_apply]
  unfold tileC
  refine Finset.sum_congr rfl fun p _ => Finset.sum_congr rfl fun q _ => ?_
  rw [pay5_apply,
    blk2 m c ⟨_, point_lt I J⟩ I (by show I.val = (8 * I.val + J.val) / 8; omega) p,
    blk3 m c ⟨_, point_lt I J⟩ J (by show J.val = (8 * I.val + J.val) % 8; omega) q]
  rfl

/-- A row of tiles' weight sum. -/
theorem rowW_eq (c : Dev nD) (I : Fin 8) : rowW m c I.val = ∑ J : Fin 8, tileW (r m c) (Y m c) (cf m c) I J := by
  rw [rowW, Finset.sum_range]
  show ∑ J : Fin 8, tW m c (8 * I.val + J.val) = _
  exact Finset.sum_congr rfl fun J _ => tW_eq m c I J

/-- A row of tiles' count. -/
theorem rowC_eq (c : Dev nD) (I : Fin 8) : rowC m c I.val = ∑ J : Fin 8, tileC (Y m c) (cf m c) I J := by
  rw [rowC, Finset.sum_range]
  show ∑ J : Fin 8, tC m c (8 * I.val + J.val) = _
  exact Finset.sum_congr rfl fun J _ => tC_eq m c I J

end Cert.KernelIdeal.Inputs
-- ==== Proof.KernelValue.lean ====
/-
  The kernel program's run and its result as the loss of the pairwise sums.

  When every label is below 4 the region's first array sums to the sum over all pairs of the reference's weights, and
  the second array's eight block sums are the numbers of counted pairs of the eight rows of tiles, whose words add up to
  the word of the number of all counted pairs.
-/
import proofs.«179149_j1803886265544_2_alg».proof.Proof.ArraySums
import proofs.«179149_j1803886265544_2_alg».proof.Proof.Inputs
import proofs.«179149_j1803886265544_2_alg».proof.Proof.PairSums

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Arrays Cert.KernelIdeal.HostTail Cert.KernelIdeal.ArraySums
open Cert.KernelIdeal.Inputs Cert.PairSums

variable (m : (ℓ : Loc nD τ sig) → Buf (Elt Ideal) ℓ) (ρ : Dev nD → PrngReg)

theorem sumArr_eq (c : Dev nD) : sumArr m c = cornerArr (rowW m c) := rfl
theorem cntArr_eq (c : Dev nD) : cntArr m c = cornerArr (rowC m c) := rfl

/-- The total weight the kernel program forms. -/
theorem total_eq (c : Dev nD) (hY : ∀ j, IntOp.cmpi .slt (Y m c j) 4#32 = 1#1) (i : S_.Idx) :
    totOf (sumArr m c) i = 0 + ∑ a, ∑ b, wR (r m c) (Y m c) (cf m c) a b := by
  rw [totOf_apply, sumArr_eq, sum_cornerArr]
  refine congrArg (0 + ·) ?_
  rw [← Cert.PairSums.total_eq (r m c) (Y m c) (cf m c) hY]
  exact Finset.sum_congr rfl fun I _ => rowW_eq m c I

/-- The count word the kernel program forms. -/
theorem count_eq (c : Dev nD) (hY : ∀ j, IntOp.cmpi .slt (Y m c j) 4#32 = 1#1) (i : S_.Idx) :
    cntOf (cntArr m c) i = BitVec.ofNat 32 (∑ a, ∑ b, nR (Y m c) (cf m c) a b) := by
  have hn : ∀ I : Fin 8, (∑ J : Fin 8, tileN (Y m c) (cf m c) I J) < 2 ^ 31 := fun I => by
    have h1 : ∑ J : Fin 8, tileN (Y m c) (cf m c) I J ≤ ∑ _J : Fin 8, 1024 * 1024 :=
      Finset.sum_le_sum fun J _ => tileN_le (Y m c) (cf m c) I J
    have e : (∑ _J : Fin 8, 1024 * 1024 : ℕ) = 8388608 := by simp
    rw [e] at h1
    exact Nat.lt_of_le_of_lt h1 (by norm_num)
  have hB : ∀ I : Fin 8, ∑ k : Fin 1024, shapeCast S8x1024 (cntArr m c) shapeCasts_S64x128_S8x1024 (ix2 I k)
      = ((∑ J : Fin 8, tileN (Y m c) (cf m c) I J : ℕ) : EReal) := fun I => by
    rw [cntArr_eq, sum_block_cornerArr, rowC_eq]
    simp only [tileC_eq (Y m c) (cf m c) hY, Nat.cast_sum]
  rw [cntOf_apply (cntArr m c) (fun I => ∑ J : Fin 8, tileN (Y m c) (cf m c) I J) hn hB i, Cert.PairSums.count_eq]

/-- The loss of the pairwise sums of risks `r`, labels `Y` and flags `c`. -/
def pairLoss (r : Fin 8192 → EReal) (Y c : Fin 8192 → BitVec 32) : Cert.Loss.S0.Idx → EReal :=
  Cert.Loss.lossTail (fun _ => 0 + ∑ a, ∑ b, wR r Y c a b) (fun _ => BitVec.ofNat 32 (∑ a, ∑ b, nR Y c a b))

/-- The kernel program's result. -/
theorem result_eq (c : Dev nD) (hY : ∀ j, IntOp.cmpi .slt (Y m c j) 4#32 = 1#1) :
    Pipeline.afterTail₀ cfgs (dats m) 0 (V0 m) [hostOps1, hostOps1_1] c main_v19 = pairLoss (r m c) (Y m c) (cf m c) :=
  (HostTail.result_eq m c).trans
    (congrArg₂ Cert.Loss.lossTail (funext fun i => total_eq m c hY i) (funext fun i => count_eq m c hY i))

/-- The run, read: when every label is below 4, every weakly fair execution terminates with the result at the loss of
    the pairwise sums and the arguments unchanged. -/
theorem run (hY : ∀ c j, IntOp.cmpi .slt (Y m c j) 4#32 = 1#1) :
    θ_run defs (onTc (τ := τ) (main (F := Ideal))) ⟨m, fun _ => 0, ρ⟩ (fun r => ∀ c : Dev nD,
      r.2.mem ((c.tc : Thread nD τ).loc main_v19) = pairLoss (Inputs.r m c) (Y m c) (cf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v19 (Pipeline.mem_restRefs_of main_v19 (by decide) (by decide))).trans (result_eq m c (hY c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue
-- ==== Proof.PreDecode.lean ====
/-
  What the precondition says of the labels: every label is below 4.

  The precondition is a conjunction, over whole arrays, of "every hazard is finite", "every entry of S is finite" and
  "every label is below 4"; its last conjunct, read at one sample, is that sample's comparison word.
-/
import proofs.«179149_j1803886265544_2_alg».proof.Pre_finite_inputs
import Idealize.ShloMosaic.Lib.ReduceAll
import Idealize.ShloMosaic.Lib.Affine
import Idealize.ShloMosaic.Lib.ValueIdx

noncomputable section

open Idealize.ShloMosaic

namespace Cert.PreDecode

open Cert.Pre_finite_inputs

instance : Subsingleton S_.Idx := ⟨fun a b => funext fun d => d.elim0⟩

/-- When the precondition's word is 1, each label's "below 4" word is 1. -/
theorem label_lt [Facts] {F : FTy → Type} [FloatOps F] (a0 a1 : FVec F S8192x4 .f32) (a2 a3 : IVec S8192 32)
    (h : fn a0 a1 a2 a3 = fun _ => 1#1) (j : S8192.Idx) : IntOp.cmpi .slt (a2 j) 4#32 = 1#1 := by
  have h0 := congrFun h ValueIdx.ix0
  dsimp only [fn] at h0
  have h1 := (IntOp.andi_eq_one.mp h0).2
  exact Host.reduce_andi_all _ _ _ _ _ h1 j

end Cert.PreDecode
-- ==== Proof.lean ====
/-
  The pairwise ranking loss: the tiled kernel against the reference over all pairs.

  Both programs compute, for 8192 samples with risks r (each sample's four hazards summed), labels Y and censoring
  flags c, the sum over all pairs (i, j) with c i = 0 and Y j > Y i of max (r j - r i) 0, divided by the number of such
  pairs (zero when there is none). The reference lays the pairs out as 8192 x 8192 arrays. The kernel folds the
  censoring flag into an effective label — Y i when uncensored, else 4 — and tests Y j against it, which is the same
  test when every label is below 4 (the precondition's added conjunct: a censored sample then passes no test); it
  multiplies the positive part by the test as a number, which over the extended reals is the reference's selection;
  it sums each of the 8 x 8 tiles of 1024 x 1024 pairs into the corner of an accumulator block carried along the
  tile row, and the host sums the blocks: sums of the same terms in another grouping. The count passes through the
  reals — each row of tiles' count is at most 2^23 — and back to integers exactly.
-/
import proofs.«179149_j1803886265544_2_alg».proof.Defs
import proofs.«179149_j1803886265544_2_alg».proof.Proof.Gen.Kernel
import proofs.«179149_j1803886265544_2_alg».proof.Proof.Gen.Kernel.Skeleton
import proofs.«179149_j1803886265544_2_alg».proof.Proof.Gen.Kernel.Launch
import proofs.«179149_j1803886265544_2_alg».proof.Proof.Gen.Kernel.Points
import proofs.«179149_j1803886265544_2_alg».proof.Proof.Gen.Kernel.Frame
import proofs.«179149_j1803886265544_2_alg».proof.Proof.Gen.KernelIdeal
import proofs.«179149_j1803886265544_2_alg».proof.Proof.Gen.KernelIdeal.Skeleton
import proofs.«179149_j1803886265544_2_alg».proof.Proof.Gen.KernelIdeal.Launch
import proofs.«179149_j1803886265544_2_alg».proof.Proof.Gen.KernelIdeal.Points
import proofs.«179149_j1803886265544_2_alg».proof.Proof.Gen.KernelIdeal.Frame
import proofs.«179149_j1803886265544_2_alg».proof.Proof.Gen.ReferenceIdeal
import proofs.«179149_j1803886265544_2_alg».proof.Proof.Gen.Pre_finite_inputs
import proofs.«179149_j1803886265544_2_alg».proof.Proof.RefRun
import proofs.«179149_j1803886265544_2_alg».proof.Proof.RefRead
import proofs.«179149_j1803886265544_2_alg».proof.Proof.RefValue
import proofs.«179149_j1803886265544_2_alg».proof.Proof.KernelValue
import proofs.«179149_j1803886265544_2_alg».proof.Proof.PreDecode
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing of the kernel was rewritten for the reading at the extended reals. -/
theorem preserves : Cert.preserves_Kernel_KernelIdeal := trivial

/-- On arguments that agree, with every label below 4, both programs end at the loss of the same pairwise sums. -/
theorem algebraic : Cert.algebraic_KernelIdeal_ReferenceIdeal := by
  intro m ρ m' ρ' hpre hagree
  have hY : ∀ c j, IntOp.cmpi .slt (Cert.KernelIdeal.Inputs.Y m c j) 4#32 = 1#1 := fun c j =>
    Cert.PreDecode.label_lt _ _ _ _ (hpre c) (ValueIdx.ix1 j)
  refine ⟨fun c => Cert.KernelIdeal.KernelValue.pairLoss (Cert.KernelIdeal.Inputs.r m c) (Cert.KernelIdeal.Inputs.Y m c)
    (Cert.KernelIdeal.Inputs.cf m c), Cert.KernelIdeal.KernelValue.run m ρ hY, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v27_eq, Cert.ReferenceIdeal.RefValue.result_eq]
  refine (congrArg₂ Cert.Loss.lossTail (funext fun i => Cert.ReferenceIdeal.RefValue.total_at _ _ _ i)
    (funext fun i => Cert.ReferenceIdeal.RefValue.count_at _ _ i)).trans ?_
  rw [(hagree c).1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
